-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x1024x4 : S_.BroadcastsInDim S512x1024x4 (![] : Fin 0 → Fin S512x1024x4.rank)
  reducesTo_S512x1024x4_S_d0_1_2 : S512x1024x4.ReducesTo [0, 1, 2] S_

variable [Facts]

def fn_part1 {F : FTy → Type} [FloatOps F] (main_v13 : IVec S_ 1) (main_v16 : IVec S512x1024x4 1) : IVec S_ 1 :=
  let main_c_5 : IVec S_ 1 := constantI S_ 1 1#1
  let main_v17 : IVec S_ 1 := (fun x v => Host.reduce IntOp.andi x v reducesTo_S512x1024x4_S_d0_1_2 h_S_) main_v16 main_c_5
  let main_v18 : IVec S_ 1 := andi main_v13 main_v17
  main_v18

def fn {F : FTy → Type} [FloatOps F] (main_arg0 : FVec F S128x1024 .f32) (main_arg1 : FVec F S512x1024 .f32) (main_arg2 : FVec F S512 .f32) (main_arg3 : FVec F S512x1024x4 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024x4 .f32 := Host.absf main_arg3
  let main_cst_4 : FVec F S_ .f32 := constant S_ .f32 0x7F800000#32
  let main_v15 : FVec F S512x1024x4 .f32 := broadcastInDim S512x1024x4 ![] bcast_S_S512x1024x4 main_cst_4
  let main_v16 : IVec S512x1024x4 1 := cmpf .olt main_v14 main_v15
  fn_part1 (F := F) main_v13 main_v16
-- ==== Kernel.lean ====
abbrev S128x1024 : Shape := ⟨2, ![128, 1024]⟩
abbrev S512x1024 : Shape := ⟨2, ![512, 1024]⟩
abbrev S512 : Shape := ⟨1, ![512]⟩
abbrev S512x1024x4 : Shape := ⟨3, ![512, 1024, 4]⟩
abbrev S1x512 : Shape := ⟨2, ![1, 512]⟩
abbrev S128x512 : Shape := ⟨2, ![128, 512]⟩
abbrev S128x128 : Shape := ⟨2, ![128, 128]⟩
abbrev S128x128x4 : Shape := ⟨3, ![128, 128, 4]⟩
abbrev S1x128 : Shape := ⟨2, ![1, 128]⟩
abbrev S32x128x4 : Shape := ⟨3, ![32, 128, 4]⟩
abbrev S32x128 : Shape := ⟨2, ![32, 128]⟩
abbrev S32x128x1 : Shape := ⟨3, ![32, 128, 1]⟩
abbrev S128x1x128 : Shape := ⟨3, ![128, 1, 128]⟩
abbrev S1x32x128 : Shape := ⟨3, ![1, 32, 128]⟩
abbrev S128x32x128 : Shape := ⟨3, ![128, 32, 128]⟩
abbrev S128x32 : Shape := ⟨2, ![128, 32]⟩

abbrev nBuf : Space → Nat
  | .hbm => 6
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S512, .f32⟩
  | .hbm, ⟨3, _⟩ => ⟨S512x1024x4, .f32⟩
  | .hbm, ⟨4, _⟩ => ⟨S1x512, .f32⟩
  | .hbm, ⟨5, _⟩ => ⟨S128x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128x4, .f32⟩
  | .local _ .vmem, ⟨5, _⟩ => ⟨S128x128x4, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v150 : BitVec 1 := Scalar.cmpi .eq arg2 c7_i32
  let v151 : BitVec 32 := Scalar.extui v150
  let c0_i32_42 : BitVec 32 := 0#32
  let v152 : BitVec 1 := Scalar.cmpi .ne v151 c0_i32_42
  v152

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S512_S1x512 : S512.ShapeCasts S1x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x128x4_S32x128x4_0_0_0 : ∀ a, (![0, 0, 0] : Fin 3 → Nat) a + S32x128x4.size a ≤ S128x128x4.size a
  h_S32x128x4 : 0 < S32x128x4.numel
  reduces_S32x128x4_S32x128 : S32x128x4.Reduces [2] S32x128
  shapeCasts_S32x128_S32x128x1 : S32x128.ShapeCasts S32x128x1
  broadcasts_S32x128x1_S32x128x4 : S32x128x1.Broadcasts S32x128x4
  inb_S128x128_S32x128_0_0 : ∀ a, (![0, 0] : Fin 2 → Nat) a + S32x128.size a ≤ S128x128.size a
  h_S32x128 : 0 < S32x128.numel
  slices_S32x128x4_o0_0_1_S32x128x1 : S32x128x4.Slices ![0, 0, 1] S32x128x1
  shapeCasts_S32x128x1_S32x128 : S32x128x1.ShapeCasts S32x128
  slices_S32x128x4_o0_0_2_S32x128x1 : S32x128x4.Slices ![0, 0, 2] S32x128x1
  slices_S32x128x4_o0_0_3_S32x128x1 : S32x128x4.Slices ![0, 0, 3] S32x128x1
  shapeCasts_S128x128_S128x1x128 : S128x128.ShapeCasts S128x1x128
  shapeCasts_S32x128_S1x32x128 : S32x128.ShapeCasts S1x32x128
  broadcasts_S128x1x128_S128x32x128 : S128x1x128.Broadcasts S128x32x128
  broadcasts_S1x32x128_S128x32x128 : S1x32x128.Broadcasts S128x32x128
  reduces_S128x32x128_S128x32 : S128x32x128.Reduces [2] S128x32
  inb_S128x128x4_S32x128x4_32_0_0 : ∀ a, (![32, 0, 0] : Fin 3 → Nat) a + S32x128x4.size a ≤ S128x128x4.size a
  inb_S128x128_S32x128_32_0 : ∀ a, (![32, 0] : Fin 2 → Nat) a + S32x128.size a ≤ S128x128.size a
  inb_S128x128x4_S32x128x4_64_0_0 : ∀ a, (![64, 0, 0] : Fin 3 → Nat) a + S32x128x4.size a ≤ S128x128x4.size a
  inb_S128x128_S32x128_64_0 : ∀ a, (![64, 0] : Fin 2 → Nat) a + S32x128.size a ≤ S128x128.size a
  inb_S128x128x4_S32x128x4_96_0_0 : ∀ a, (![96, 0, 0] : Fin 3 → Nat) a + S32x128x4.size a ≤ S128x128x4.size a
  inb_S128x128_S32x128_96_0 : ∀ a, (![96, 0] : Fin 2 → Nat) a + S32x128.size a ≤ S128x128.size a
  concatenates_S128x32_S128x32_S128x32_S128x32_S128x128_d1 : Shape.Concatenates [S128x32, S128x32, S128x32, S128x32] S128x128 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x1024.size a
  hwx0_1 : ∀ i : grid0.Coords, EltTy.bits .f32 = 32 ∨ (Rect.block (s := S512x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x4.size a ≤ S512x1024x4.size a
  hwx0_2 : ∀ i : grid0.Coords, EltTy.bits .f32 = 32 ∨ (Rect.block (s := S512x1024x4) S128x128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x512.size a
  hwx0_3 : ∀ i : grid0.Coords, EltTy.bits .f32 = 32 ∨ (Rect.block (s := S1x512) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x512.size a
  hwx0_4 : ∀ i : grid0.Coords, EltTy.bits .f32 = 32 ∨ (Rect.block (s := S128x512) S128x128.size (cc0_transform_4 i) (hinb0_4 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x1024 : Shape := ⟨2, ![128, 1024]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩
abbrev S512x1024x1 : Shape := ⟨3, ![512, 1024, 1]⟩
abbrev S128x1x1024 : Shape := ⟨3, ![128, 1, 1024]⟩
abbrev S1x512x1024 : Shape := ⟨3, ![1, 512, 1024]⟩
abbrev S128x512x1024 : Shape := ⟨3, ![128, 512, 1024]⟩
abbrev S128x512 : Shape := ⟨2, ![128, 512]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S512x1024, .f32⟩
  | .hbm, ⟨2, _⟩ => ⟨S512, .f32⟩
  | .hbm, ⟨3, _⟩ => ⟨S512x1024x4, .f32⟩
  | .hbm, ⟨4, _⟩ => ⟨S_, .f32⟩
  | .hbm, ⟨5, _⟩ => ⟨S512x1024x4, .f32⟩
  | .hbm, ⟨6, _⟩ => ⟨S512x1024x4, .f32⟩
  | .hbm, ⟨7, _⟩ => ⟨S_, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024x1, .f32⟩
  | .hbm, ⟨13, _⟩ => ⟨S512x1024x4, .f32⟩
  | .hbm, ⟨14, _⟩ => ⟨S512x1024x4, .f32⟩
  | .hbm, ⟨15, _⟩ => ⟨S512x1024x4, .f32⟩
  | .hbm, ⟨16, _⟩ => ⟨S_, .f32⟩
  | .hbm, ⟨17, _⟩ => ⟨S512x1024, .f32⟩
  | .hbm, ⟨18, _⟩ => ⟨S512x1024x1, .f32⟩
  | .hbm, ⟨19, _⟩ => ⟨S512x1024x4, .f32⟩
  | .hbm, ⟨20, _⟩ => ⟨S512x1024x4, .f32⟩
  | .hbm, ⟨21, _⟩ => ⟨S512x1024x1, .f32⟩
  | .hbm, ⟨22, _⟩ => ⟨S512x1024, .f32⟩
  | .hbm, ⟨23, _⟩ => ⟨S512x1024, .f32⟩
  | .hbm, ⟨24, _⟩ => ⟨S512x1024x1, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S512x1024x1, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S128x1x1024, .f32⟩
  | .hbm, ⟨35, _⟩ => ⟨S1x512x1024, .f32⟩
  | .hbm, ⟨36, _⟩ => ⟨S128x512x1024, .f32⟩
  | .hbm, ⟨37, _⟩ => ⟨S128x512x1024, .f32⟩
  | .hbm, ⟨38, _⟩ => ⟨S128x512x1024, .f32⟩
  | .hbm, ⟨39, _⟩ => ⟨S128x512x1024, .f32⟩
  | .hbm, ⟨40, _⟩ => ⟨S_, .f32⟩
  | .hbm, ⟨41, _⟩ => ⟨S128x512, .f32⟩
  | .hbm, ⟨42, _⟩ => ⟨S1x512, .f32⟩
  | .hbm, ⟨43, _⟩ => ⟨S128x512, .f32⟩
  | .hbm, ⟨44, _⟩ => ⟨S128x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  bcast_S_S512x1024x4 : S_.BroadcastsInDim S512x1024x4 (![] : Fin 0 → Fin S512x1024x4.rank)
  reducesTo_S512x1024x4_S512x1024_d2 : S512x1024x4.ReducesTo [2] S512x1024
  h_S_ : 0 < S_.numel
  bcast_S_S512x1024 : S_.BroadcastsInDim S512x1024 (![] : Fin 0 → Fin S512x1024.rank)
  bcast_S512x1024_S512x1024x1_0_1 : S512x1024.BroadcastsInDim S512x1024x1 (![0, 1] : Fin 2 → Fin S512x1024x1.rank)
  bcast_S512x1024x1_S512x1024x4_0_1_2 : S512x1024x1.BroadcastsInDim S512x1024x4 (![0, 1, 2] : Fin 3 → Fin S512x1024x4.rank)
  slices_S512x1024x4_S512x1024x1_0_0_1 : S512x1024x4.Slices ![0, 0, 1] S512x1024x1
  shapeCasts_S512x1024x1_S512x1024 : S512x1024x1.ShapeCasts S512x1024
  slices_S512x1024x4_S512x1024x1_0_0_2 : S512x1024x4.Slices ![0, 0, 2] S512x1024x1
  slices_S512x1024x4_S512x1024x1_0_0_3 : S512x1024x4.Slices ![0, 0, 3] S512x1024x1
  bcast_S128x1024_S128x1x1024_0_2 : S128x1024.BroadcastsInDim S128x1x1024 (![0, 2] : Fin 2 → Fin S128x1x1024.rank)
  bcast_S512x1024_S1x512x1024_1_2 : S512x1024.BroadcastsInDim S1x512x1024 (![1, 2] : Fin 2 → Fin S1x512x1024.rank)
  bcast_S128x1x1024_S128x512x1024_0_1_2 : S128x1x1024.BroadcastsInDim S128x512x1024 (![0, 1, 2] : Fin 3 → Fin S128x512x1024.rank)
  bcast_S1x512x1024_S128x512x1024_0_1_2 : S1x512x1024.BroadcastsInDim S128x512x1024 (![0, 1, 2] : Fin 3 → Fin S128x512x1024.rank)
  reducesTo_S128x512x1024_S128x512_d2 : S128x512x1024.ReducesTo [2] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)

variable [Facts₀]

class Facts : Prop extends Facts₀ where

variable [Facts]
-- ==== Proof.Spec.lean ====
/-
  The function both programs compute, index by index, on the extended reals.

  For an output row `o` and an input column `k` the four logits `θ[o,k,·]` are turned into softmax weights
  (shifted by their maximum, exponentiated, divided by the sum of the four exponentials); the weights of atoms
  1, 2, 3 mix `W[o,k]`, `tanh W[o,k]` and `sin W[o,k]` into one effective weight (`mix`). The result at
  `(r, o)` is the sum over the 1024 columns of `tanh (x[r,k] · mix)`, plus the bias `b[o]` (`G`).

  Also here: the two scalings of a logit by one (a product with the word of `1.0`, a quotient by it) change
  nothing, and a sum over 1024 columns is the sum over 8 blocks of the sums over the 128 columns of a block.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The binary32 word of `1.0` denotes the real number one. -/
theorem ofBits_one : Ideal.ofBits .f32 0x3F800000#32 = 1 := by
  simp [Ideal.ofBits, Ideal.ieee, -EReal.coe_mul]; norm_num

/-- A product with that word changes nothing, on every extended real. -/
theorem mul_ofBits_one (x : EReal) : x * Ideal.ofBits .f32 0x3F800000#32 = x := by
  rw [ofBits_one, mul_one]

/-- A quotient by that word changes nothing either: the divisor is the nonzero real one. -/
theorem div_ofBits_one (x : EReal) : Ideal.div x (Ideal.ofBits .f32 0x3F800000#32) = x := by
  rw [ofBits_one, show (1 : EReal) = ((1 : ℝ) : EReal) from rfl, Ideal.div_coe one_ne_zero]
  simp

/-- The word both programs start their maxima from (binary32's `-∞`), kept as a word: it is the same on both sides. -/
abbrev ninf : EReal := Ideal.ofBits .f32 0xFF800000#32

/-- The shift of a softmax over four logits: their maximum (folded from `ninf`, and once more against it). -/
def shift (t : Fin 4 → EReal) : EReal := max ninf ((Finset.univ : Finset (Fin 4)).fold max ninf t)

/-- The softmax weight of atom `a`: its shifted exponential over the sum of the four. -/
def weight (t : Fin 4 → EReal) (a : Fin 4) : EReal :=
  Ideal.div (Ideal.exp (t a - shift t)) (∑ a' : Fin 4, Ideal.exp (t a' - shift t))

/-- The effective weight: atoms 1, 2, 3 mix `w`, `tanh w`, `sin w` (atom 0 is the zero function and contributes nothing). -/
def mix (t : Fin 4 → EReal) (w : EReal) : EReal :=
  weight t 1 * w + weight t 2 * Ideal.tanh w + weight t 3 * Ideal.sin w

/-- One summand of an output entry. -/
def term (x : EReal) (t : Fin 4 → EReal) (w : EReal) : EReal := Ideal.tanh (x * mix t w)

/-- Column `kk` of column block `s`. -/
abbrev col (s : Fin 8) (kk : Fin 128) : Fin 1024 := ⟨128 * s.val + kk.val, by have := s.isLt; have := kk.isLt; omega⟩

/-- Row `jj` of row block `q` of the 512 output rows. -/
abbrev row (q : Fin 4) (jj : Fin 128) : Fin 512 := ⟨128 * q.val + jj.val, by have := q.isLt; have := jj.isLt; omega⟩

/-- THE RESULT: entry `(r, o)` is the sum over the columns of `tanh (x[r,k] · mix(θ[o,k,·], W[o,k]))`, plus `b[o]`. -/
def G (x : (⟨2, ![128, 1024]⟩ : Shape).Idx → EReal) (W : (⟨2, ![512, 1024]⟩ : Shape).Idx → EReal)
    (b : (⟨1, ![512]⟩ : Shape).Idx → EReal) (θ : (⟨3, ![512, 1024, 4]⟩ : Shape).Idx → EReal) :
    (⟨2, ![128, 512]⟩ : Shape).Idx → EReal :=
  fun i => (∑ k : Fin 1024, term (x (ix2 (i 0) k)) (fun a => θ (ix3 (i 1) k a)) (W (ix2 (i 1) k))) + b (ix1 (i 1))

/-- A sum over the 1024 columns is the sum over the 8 column blocks of the sums over a block's 128 columns. -/
theorem sum_cols {M : Type*} [AddCommMonoid M] (f : Fin 1024 → M) :
    ∑ k : Fin 1024, f k = ∑ s : Fin 8, ∑ kk : Fin 128, f (col s kk) := by
  rw [← Fintype.sum_prod_type' (f := fun s kk => f (col s kk))]
  refine (Fintype.sum_equiv (finProdFinEquiv (m := 8) (n := 128)) _ _ fun p => ?_).symm
  refine congrArg f (Fin.ext ?_)
  show 128 * p.1.val + p.2.val = p.2.val + 128 * p.1.val
  omega

end Cert.Spec

end
-- ==== Proof.LibOuterLayout.lean ====
/-
  The layout steps of an OUTER (pairwise) combination of two matrices, read at coordinates.
  To combine every row of a matrix `A : [a, b]` with every column of a matrix `B : [b, c]` entry by entry, `A` is
  given a trailing unit axis, `[a, b, 1]`, and repeated along it to `[a, b, c]`; `B` is given a leading unit axis,
  `[1, b, c]`, and repeated along it to `[a, b, c]`. At `(i, d, k)` the first then holds `A (i, d)` and the second
  `B (d, k)`. A sum of such a rank-3 array over its MIDDLE axis, read at `(i, k)`, is the sum over `d` of the
  entries `(i, d, k)`.
-/
import Idealize.ShloMosaic.Lib.ValueLayout
import Idealize.ShloMosaic.Lib.ValueIdx
import Idealize.ShloMosaic.PureOps.Ideal.Laws

noncomputable section

namespace Cert.LibOuterLayout

open Idealize.ShloMosaic Idealize.ShloMosaic.ValueIdx

variable {α : Type}

/-- A matrix `[a, b]` recast with a trailing unit axis, `[a, b, 1]`, reads at `(i, j, u)` the matrix at `(i, j)`:
    the row-major position of `(i, j, u)` in `[a, b, 1]` is `(i · b + j) · 1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array `[a, b, 1]` repeated along its unit axis to `[a, b, c]` reads at `(i, j, k)` its entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An array `[1, b, c]` repeated along its unit axis to `[a, b, c]` reads at `(i, j, k)` its entry `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- So the rows of `A : [a, b]`, recast and repeated to `[a, b, c]`, read at `(i, d, k)` the entry `A (i, d)`. -/
theorem rows_apply {a b c : ℕ} (A : (⟨2, ![a, b]⟩ : Shape).Idx → α)
    (h₁ : (⟨2, ![a, b]⟩ : Shape).ShapeCasts ⟨3, ![a, b, 1]⟩) (h₂ : (⟨3, ![a, b, 1]⟩ : Shape).Broadcasts ⟨3, ![a, b, c]⟩)
    (i : Fin a) (d : Fin b) (k : Fin c) :
    broadcastTo ⟨3, ![a, b, c]⟩ (shapeCast ⟨3, ![a, b, 1]⟩ A h₁) h₂ (ix3 i d k) = A (ix2 i d) :=
  (broadcastTo_ab1_abc_apply _ h₂ i d k).trans (shapeCast_ab_ab1_apply A h₁ i d 0)

/-- And the columns of `B : [b, c]`, recast and repeated to `[a, b, c]`, read at `(i, d, k)` the entry `B (d, k)`. -/
theorem cols_apply {a b c : ℕ} (B : (⟨2, ![b, c]⟩ : Shape).Idx → α)
    (h₁ : (⟨2, ![b, c]⟩ : Shape).ShapeCasts ⟨3, ![1, b, c]⟩) (h₂ : (⟨3, ![1, b, c]⟩ : Shape).Broadcasts ⟨3, ![a, b, c]⟩)
    (i : Fin a) (d : Fin b) (k : Fin c) :
    broadcastTo ⟨3, ![a, b, c]⟩ (shapeCast ⟨3, ![1, b, c]⟩ B h₁) h₂ (ix3 i d k) = B (ix2 d k) :=
  (broadcastTo_1bc_abc_apply _ h₂ i d k).trans (shapeCast_ab_1ab_apply B h₁ 0 d k)

end Cert.LibOuterLayout

end
-- ==== Proof.LibLastAxis.lean ====
/-
  Rank-3 arrays `[a, b, n]` handled along their LAST axis, read at coordinates.

  * a sum over the last axis, at `(i, j)`, is the sum over `k` of the entries `(i, j, k)`; a maximum over it is the
    fold of `max` over those entries from the accumulator's value;
  * the slice of width one at position `o` of the last axis, `[a, b, 1]`, reads at `(i, j, 0)` the entry `(i, j, o)`;
  * an array `[a, b, 1]` recast to the matrix `[a, b]` reads at `(i, j)` its entry `(i, j, 0)`;
  * a matrix `[a, c]` given a MIDDLE unit axis, `[a, 1, c]`, and repeated along it to `[a, b, c]` reads at
    `(i, j, k)` the matrix at `(i, k)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.LibLastAxis

open Idealize.ShloMosaic Idealize.ShloMosaic.ValueIdx

variable {α : Type}

/-- The index `(i, j)` of `[a, b]` with `k` inserted on the last axis of `[a, b, n]` is `(i, j, k)`. -/
theorem lift_last {a b n : ℕ} (h : (⟨3, ![a, b, n]⟩ : Shape).Reduces [2] ⟨2, ![a, b]⟩) (i : Fin a) (j : Fin b) (k : Fin n) :
    h.lift (ix2 i j) k = ix3 i j k :=
  funext fun ax => Fin.ext (by match ax with | ⟨0, _⟩ => rfl | ⟨1, _⟩ => rfl | ⟨2, _⟩ => rfl)

/-- A float sum over the last axis, read at `(i, j)` on the extended reals: the sum of the entries `(i, j, k)`. -/
theorem sum_last_apply {a b n : ℕ} (v : FVec Ideal ⟨3, ![a, b, n]⟩ .f32) (acc : BitVec 32)
    (h : (⟨3, ![a, b, n]⟩ : Shape).Reduces [2] ⟨2, ![a, b]⟩) (hφ : FKind.Formats .f32) (hacc : acc = FKind.add.neutral .f32 hφ)
    (i : Fin a) (j : Fin b) :
    multiReduction .add [2] ⟨2, ![a, b]⟩ v acc h hφ hacc (ix2 i j) = ∑ k : Fin n, v (ix3 i j k) := by
  refine (Ideal.multiReduction_add_single v acc h hφ hacc (ix2 i j)).trans ?_
  exact Finset.sum_congr rfl fun k _ => congrArg v (lift_last h i j k)

/-- A float maximum over the last axis, read at `(i, j)`: the fold of `max` over the entries `(i, j, k)` from the
    accumulator's value. -/
theorem max_last_apply {a b n : ℕ} (v : FVec Ideal ⟨3, ![a, b, n]⟩ .f32) (acc : BitVec 32)
    (h : (⟨3, ![a, b, n]⟩ : Shape).Reduces [2] ⟨2, ![a, b]⟩) (hφ : FKind.Formats .f32) (hacc : acc = FKind.maximumf.neutral .f32 hφ)
    (i : Fin a) (j : Fin b) :
    multiReduction .maximumf [2] ⟨2, ![a, b]⟩ v acc h hφ hacc (ix2 i j)
      = (Finset.univ : Finset (Fin n)).fold max (Ideal.ofBits .f32 acc) (fun k => v (ix3 i j k)) := by
  refine (Ideal.multiReduction_maximumf_single v acc h hφ hacc (ix2 i j)).trans ?_
  exact congrArg (Finset.univ.fold max (Ideal.ofBits .f32 acc)) (funext fun k => congrArg v (lift_last h i j k))

/-- The width-one slice at position `o` of the last axis reads at `(i, j, u)` the entry `(i, j, o)`. -/
theorem slice_last_apply {a b n : ℕ} (o : ℕ) (ho : o < n) (x : (⟨3, ![a, b, n]⟩ : Shape).Idx → α)
    (h : (⟨3, ![a, b, n]⟩ : Shape).Slices ![0, 0, o] ⟨3, ![a, b, 1]⟩) (i : Fin a) (j : Fin b) (u : Fin 1) :
    extractStridedSlice ⟨3, ![a, b, 1]⟩ ![0, 0, o] x h (ix3 i j u) = x (ix3 i j ⟨o, ho⟩) :=
  extractStridedSlice_apply _ x h _ _ fun ax => by
    match ax with
    | ⟨0, _⟩ => show i.val = 0 + i.val; omega
    | ⟨1, _⟩ => show j.val = 0 + j.val; omega
    | ⟨2, _⟩ => show o = o + u.val; omega

/-- An array `[a, b, 1]` recast to `[a, b]` reads at `(i, j)` its entry `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- A matrix `[a, c]` recast with a middle unit axis, `[a, 1, c]`, reads at `(i, u, k)` the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An array `[a, 1, c]` repeated along its unit axis to `[a, b, c]` reads at `(i, j, k)` its entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- So a matrix `X : [a, c]`, recast and repeated to `[a, b, c]`, reads at `(i, j, k)` the entry `X (i, k)`. -/
theorem mids_apply {a b c : ℕ} (X : (⟨2, ![a, c]⟩ : Shape).Idx → α)
    (h₁ : (⟨2, ![a, c]⟩ : Shape).ShapeCasts ⟨3, ![a, 1, c]⟩) (h₂ : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ X h₁) h₂ (ix3 i j k) = X (ix2 i k) :=
  (broadcastTo_a1c_abc_apply _ h₂ i j k).trans (shapeCast_ac_a1c_apply X h₁ i 0 k)

end Cert.LibLastAxis

end
-- ==== Proof.Body.lean ====
/-
  The arithmetic of the kernel's body on the extended reals, read at coordinates.

  At one grid point the body holds a block `x0 : [128, 128]` of `x` (128 batch rows, 128 columns), and for each of four
  chunks of 32 output rows a block `th : [32, 128, 4]` of logits and a block `w : [32, 128]` of weights. Per chunk it
  scales the logits by one, takes the softmax over the last axis (`softw`), mixes the weights (`weffv`), and sums
  `tanh (x0[r, kk] · weff[jj, kk])` over the 128 columns `kk` (`outer`): entry `(r, jj)` of the chunk's partial sums
  is `∑ kk, term (x0[r, kk]) (th[jj, kk, ·]) (w[jj, kk])` (`chunk_apply`). The four chunks are laid side by side along
  the output-row axis and added to the accumulator (`step`, `step_apply`).
-/
import proofs.«157324_j44813688767076_2_alg».proof.Proof.Gen.KernelIdeal.Skeleton
import proofs.«157324_j44813688767076_2_alg».proof.Proof.Spec
import proofs.«157324_j44813688767076_2_alg».proof.Proof.LibOuterLayout
import proofs.«157324_j44813688767076_2_alg».proof.Proof.LibLastAxis
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Spec

/-! ## The softmax over the four atoms -/

/-- The shift: the maximum of the four logits at each `(jj, kk)`, once more against `-∞`. -/
def rowmax (t : FVec Ideal S32x128x4 .f32) : FVec Ideal S32x128 .f32 :=
  maximumf (broadcast S32x128 (Scalar.ofBits .f32 0xFF800000#32))
    (multiReduction .maximumf [2] S32x128 t 0xFF800000#32 reduces_S32x128x4_S32x128 (.inl rfl) rfl)

theorem rowmax_apply (t : FVec Ideal S32x128x4 .f32) (jj : Fin 32) (kk : Fin 128) :
    rowmax t (ix2 jj kk) = shift (fun a => t (ix3 jj kk a)) := by
  exact congrArg (max (Ideal.ofBits .f32 0xFF800000#32)) (LibLastAxis.max_last_apply t _ reduces_S32x128x4_S32x128 _ _ jj kk)

/-- A `[32, 128]` array repeated over the four atoms. -/
def keep4 (v : FVec Ideal S32x128 .f32) : FVec Ideal S32x128x4 .f32 :=
  broadcastTo S32x128x4 (shapeCast S32x128x1 v shapeCasts_S32x128_S32x128x1) broadcasts_S32x128x1_S32x128x4

theorem keep4_apply (v : FVec Ideal S32x128 .f32) (jj : Fin 32) (kk : Fin 128) (a : Fin 4) :
    keep4 v (ix3 jj kk a) = v (ix2 jj kk) :=
  LibOuterLayout.rows_apply v shapeCasts_S32x128_S32x128x1 broadcasts_S32x128x1_S32x128x4 jj kk a

/-- The shifted exponentials. -/
def expsh (t : FVec Ideal S32x128x4 .f32) : FVec Ideal S32x128x4 .f32 := exp (subf t (keep4 (rowmax t)))

theorem expsh_apply (t : FVec Ideal S32x128x4 .f32) (jj : Fin 32) (kk : Fin 128) (a : Fin 4) :
    expsh t (ix3 jj kk a) = Ideal.exp (t (ix3 jj kk a) - shift (fun a' => t (ix3 jj kk a'))) := by
  show Ideal.exp (t (ix3 jj kk a) - keep4 (rowmax t) (ix3 jj kk a)) = _
  rw [keep4_apply, rowmax_apply]

/-- Their sum over the four atoms. -/
def rowsum (e : FVec Ideal S32x128x4 .f32) : FVec Ideal S32x128 .f32 :=
  multiReduction .add [2] S32x128 e 0x00000000#32 reduces_S32x128x4_S32x128 (.inl rfl) rfl

theorem rowsum_apply (e : FVec Ideal S32x128x4 .f32) (jj : Fin 32) (kk : Fin 128) :
    rowsum e (ix2 jj kk) = ∑ a : Fin 4, e (ix3 jj kk a) :=
  LibLastAxis.sum_last_apply e _ reduces_S32x128x4_S32x128 _ _ jj kk

/-- The softmax weights. -/
def softw (t : FVec Ideal S32x128x4 .f32) : FVec Ideal S32x128x4 .f32 :=
  divf (expsh t) (keep4 (rowsum (expsh t)))

theorem softw_apply (t : FVec Ideal S32x128x4 .f32) (jj : Fin 32) (kk : Fin 128) (a : Fin 4) :
    softw t (ix3 jj kk a) = weight (fun a' => t (ix3 jj kk a')) a := by
  show Ideal.div (expsh t (ix3 jj kk a)) (keep4 (rowsum (expsh t)) (ix3 jj kk a)) = _
  rw [keep4_apply, rowsum_apply, expsh_apply]
  simp only [expsh_apply]
  rfl

/-! ## The effective weights -/

/-- Atom `o`'s weights as a `[32, 128]` array. -/
def atom (p : FVec Ideal S32x128x4 .f32) (o : ℕ) (h : S32x128x4.Slices ![0, 0, o] S32x128x1) : FVec Ideal S32x128 .f32 :=
  shapeCast S32x128 (extractStridedSlice S32x128x1 ![0, 0, o] p h) shapeCasts_S32x128x1_S32x128

theorem atom_apply (p : FVec Ideal S32x128x4 .f32) (o : ℕ) (ho : o < 4) (h : S32x128x4.Slices ![0, 0, o] S32x128x1)
    (jj : Fin 32) (kk : Fin 128) : atom p o h (ix2 jj kk) = p (ix3 jj kk ⟨o, ho⟩) :=
  (LibLastAxis.shapeCast_ab1_ab_apply _ shapeCasts_S32x128x1_S32x128 jj kk).trans
    (LibLastAxis.slice_last_apply o ho p h jj kk 0)

/-- The mix of `w`, `tanh w`, `sin w` by the weights of atoms 1, 2, 3. -/
def weffv (p : FVec Ideal S32x128x4 .f32) (w : Vec Ideal S32x128 .f32) : FVec Ideal S32x128 .f32 :=
  addf (addf (mulf (atom p 1 slices_S32x128x4_o0_0_1_S32x128x1) w) (mulf (atom p 2 slices_S32x128x4_o0_0_2_S32x128x1) (tanh w)))
    (mulf (atom p 3 slices_S32x128x4_o0_0_3_S32x128x1) (sin w))

theorem weffv_apply (p : FVec Ideal S32x128x4 .f32) (w : Vec Ideal S32x128 .f32) (jj : Fin 32) (kk : Fin 128) :
    weffv p w (ix2 jj kk) = p (ix3 jj kk 1) * w (ix2 jj kk) + p (ix3 jj kk 2) * Ideal.tanh (w (ix2 jj kk))
      + p (ix3 jj kk 3) * Ideal.sin (w (ix2 jj kk)) := by
  show atom p 1 _ (ix2 jj kk) * w (ix2 jj kk) + atom p 2 _ (ix2 jj kk) * Ideal.tanh (w (ix2 jj kk))
    + atom p 3 _ (ix2 jj kk) * Ideal.sin (w (ix2 jj kk)) = _
  rw [atom_apply p 1 (by decide), atom_apply p 2 (by decide), atom_apply p 3 (by decide)]
  rfl

/-! ## The partial sums of one chunk -/

/-- Every batch row against every output row of the chunk, summed over the block's columns. -/
def outer (x0 : Vec Ideal S128x128 .f32) (we : FVec Ideal S32x128 .f32) : FVec Ideal S128x32 .f32 :=
  multiReduction .add [2] S128x32
    (tanh (mulf (broadcastTo S128x32x128 (shapeCast S128x1x128 x0 shapeCasts_S128x128_S128x1x128) broadcasts_S128x1x128_S128x32x128)
      (broadcastTo S128x32x128 (shapeCast S1x32x128 we shapeCasts_S32x128_S1x32x128) broadcasts_S1x32x128_S128x32x128)))
    0x00000000#32 reduces_S128x32x128_S128x32 (.inl rfl) rfl

theorem outer_apply (x0 : Vec Ideal S128x128 .f32) (we : FVec Ideal S32x128 .f32) (r : Fin 128) (jj : Fin 32) :
    outer x0 we (ix2 r jj) = ∑ kk : Fin 128, Ideal.tanh (x0 (ix2 r kk) * we (ix2 jj kk)) := by
  refine (LibLastAxis.sum_last_apply _ _ reduces_S128x32x128_S128x32 _ _ r jj).trans ?_
  refine Finset.sum_congr rfl fun kk _ => ?_
  show Ideal.tanh (broadcastTo S128x32x128 (shapeCast S128x1x128 x0 shapeCasts_S128x128_S128x1x128) broadcasts_S128x1x128_S128x32x128 (ix3 r jj kk)
    * broadcastTo S128x32x128 (shapeCast S1x32x128 we shapeCasts_S32x128_S1x32x128) broadcasts_S1x32x128_S128x32x128 (ix3 r jj kk)) = _
  rw [LibLastAxis.mids_apply, LibOuterLayout.cols_apply]

/-- The logits scaled by the inverse temperature, which is one: nothing changes. -/
def scaled (th : Vec Ideal S32x128x4 .f32) : FVec Ideal S32x128x4 .f32 :=
  mulf th (broadcast S32x128x4 (Scalar.ofBits .f32 0x3F800000#32))

theorem scaled_apply (th : Vec Ideal S32x128x4 .f32) (i : S32x128x4.Idx) : scaled th i = th i :=
  mul_ofBits_one _

/-- One chunk: the logits scaled by one, softmaxed, mixed with the weights, and summed against `x0`. -/
def chunk (x0 : Vec Ideal S128x128 .f32) (th : Vec Ideal S32x128x4 .f32) (w : Vec Ideal S32x128 .f32) : FVec Ideal S128x32 .f32 :=
  outer x0 (weffv (softw (scaled th)) w)

/-- Entry `(r, jj)` of a chunk's partial sums. -/
theorem chunk_apply (x0 : Vec Ideal S128x128 .f32) (th : Vec Ideal S32x128x4 .f32) (w : Vec Ideal S32x128 .f32)
    (r : Fin 128) (jj : Fin 32) :
    chunk x0 th w (ix2 r jj) = ∑ kk : Fin 128, term (x0 (ix2 r kk)) (fun a => th (ix3 jj kk a)) (w (ix2 jj kk)) := by
  refine (outer_apply x0 _ r jj).trans (Finset.sum_congr rfl fun kk _ => ?_)
  rw [weffv_apply, softw_apply, softw_apply, softw_apply]
  simp only [scaled_apply]
  rfl

/-- The four chunk payloads of the printed body are this one function of their blocks. -/
theorem pay4_eq (x0 : Vec Ideal S128x128 .f32) (th : Vec Ideal S32x128x4 .f32) (w : Vec Ideal S32x128 .f32) :
    k0_pay4 x0 th w = chunk x0 th w := rfl
theorem pay5_eq (x0 : Vec Ideal S128x128 .f32) (th : Vec Ideal S32x128x4 .f32) (w : Vec Ideal S32x128 .f32) :
    k0_pay5 x0 th w = chunk x0 th w := rfl
theorem pay8_eq (x0 : Vec Ideal S128x128 .f32) (th : Vec Ideal S32x128x4 .f32) (w : Vec Ideal S32x128 .f32) :
    k0_pay8 x0 (k0_pay6 th) (k0_pay7 th) w = chunk x0 th w := rfl

end Cert.KernelIdeal.Body

end
-- ==== Proof.Step.lean ====
/-
  What one grid point adds to the accumulator, read at coordinates.

  The body cuts its `[128, 128, 4]` block of logits and its `[128, 128]` block of weights into four chunks of 32 output
  rows (rows `32c … 32c + 31`), computes each chunk's partial sums `[128 batch rows, 32 output rows]`, lays the four side by
  side into `[128, 128]` and adds that to the accumulator. So at `(r, j)` the accumulator grows by
  `∑ kk, term (x0[r, kk]) (x2[j, kk, ·]) (x1[j, kk])`, whichever chunk `j` falls in (`step_apply`).
-/
import proofs.«157324_j44813688767076_2_alg».proof.Proof.Body

noncomputable section

namespace Cert.KernelIdeal.Body

open Cert.KernelIdeal Cert.KernelIdeal.Gen Idealize.ShloMosaic Idealize.ShloMosaic.ValueIdx Cert.Spec

/-- Rows `o … o + 31` of the block of logits, loaded: entry `(jj, kk, a)` is the block's `(o + jj, kk, a)`. -/
theorem ld_logits (x2 : Vec Ideal S128x128x4 .f32) (o : ℕ) (inb : ∀ a, (![o, 0, 0] : Fin 3 → Nat) a + S32x128x4.size a ≤ S128x128x4.size a)
    (jj : Fin 32) (kk : Fin 128) (a : Fin 4) (j : Fin 128) (hj : j.val = o + jj.val) :
    View.ld x2 (Rect.unit ![o, 0, 0] ![32, 128, 4] inb) (ix3 jj kk a) = x2 (ix3 j kk a) :=
  congrArg x2 (funext fun ax => Fin.ext (by
    match ax with
    | ⟨0, _⟩ => show o + 1 * jj.val = j.val; omega
    | ⟨1, _⟩ => show 0 + 1 * kk.val = kk.val; omega
    | ⟨2, _⟩ => show 0 + 1 * a.val = a.val; omega))

/-- Rows `o … o + 31` of the block of weights, loaded: entry `(jj, kk)` is the block's `(o + jj, kk)`. -/
theorem ld_weights (x1 : Vec Ideal S128x128 .f32) (o : ℕ) (inb : ∀ a, (![o, 0] : Fin 2 → Nat) a + S32x128.size a ≤ S128x128.size a)
    (jj : Fin 32) (kk : Fin 128) (j : Fin 128) (hj : j.val = o + jj.val) :
    View.ld x1 (Rect.unit ![o, 0] ![32, 128] inb) (ix2 jj kk) = x1 (ix2 j kk) :=
  congrArg x1 (funext fun ax => Fin.ext (by
    match ax with
    | ⟨0, _⟩ => show o + 1 * jj.val = j.val; omega
    | ⟨1, _⟩ => show 0 + 1 * kk.val = kk.val; omega))

/-- A chunk computed from rows `o … o + 31` of the blocks: its entry `(r, jj)` is the sum over the columns of the summands
    of block row `j = o + jj`. -/
theorem chunk_rows_apply (x0 x1 : Vec Ideal S128x128 .f32) (x2 : Vec Ideal S128x128x4 .f32) (o : ℕ)
    (inb2 : ∀ a, (![o, 0, 0] : Fin 3 → Nat) a + S32x128x4.size a ≤ S128x128x4.size a)
    (inb1 : ∀ a, (![o, 0] : Fin 2 → Nat) a + S32x128.size a ≤ S128x128.size a)
    (r : Fin 128) (jj : Fin 32) (j : Fin 128) (hj : j.val = o + jj.val) :
    chunk x0 (View.ld x2 (Rect.unit ![o, 0, 0] ![32, 128, 4] inb2)) (View.ld x1 (Rect.unit ![o, 0] ![32, 128] inb1)) (ix2 r jj)
      = ∑ kk : Fin 128, term (x0 (ix2 r kk)) (fun a => x2 (ix3 j kk a)) (x1 (ix2 j kk)) := by
  refine (chunk_apply x0 _ _ r jj).trans (Finset.sum_congr rfl fun kk _ => ?_)
  have e2 : (fun a : Fin 4 => View.ld x2 (Rect.unit ![o, 0, 0] ![32, 128, 4] inb2) (ix3 jj kk a)) = fun a => x2 (ix3 j kk a) :=
    funext fun a => ld_logits x2 o inb2 jj kk a j hj
  rw [ld_weights x1 o inb1 jj kk j hj, e2]

/-- Four `[128, 32]` arrays side by side: column `32q + jj` of the result is column `jj` of piece `q`. -/
theorem concat4_apply (c : Fin 4 → FVec Ideal S128x32 .f32)
    (h : Shape.Concatenates [S128x32, S128x32, S128x32, S128x32] S128x128 1) (r : Fin 128) (q : Fin 4) (jj : Fin 32)
    (hj : 32 * q.val + jj.val < 128) :
    concatenate S128x128 1 [⟨S128x32, c 0⟩, ⟨S128x32, c 1⟩, ⟨S128x32, c 2⟩, ⟨S128x32, c 3⟩] h (ix2 r ⟨32 * q.val + jj.val, hj⟩)
      = c q (ix2 r jj) := by
  have hi : ∀ (j : Fin 128) (b : Fin S128x32.rank), b.cast (rfl : S128x32.rank = S128x128.rank) ≠ (1 : Fin 2) →
      ((ix2 r jj : S128x32.Idx) b).val = ((ix2 r j : S128x128.Idx) (b.cast rfl)).val := fun j b hb => by
    match b with
    | ⟨0, _⟩ => rfl
    | ⟨1, _⟩ => exact absurd rfl hb
  match q, hj with
  | ⟨0, _⟩, hj =>
    exact concatenate_apply_piece (t := S128x128) 1 [⟨S128x32, c 0⟩, ⟨S128x32, c 1⟩, ⟨S128x32, c 2⟩, ⟨S128x32, c 3⟩] h _ 0 (by show 0 < 4; omega)
      S128x32 (c 0) rfl rfl 0 rfl (ix2 r jj) (hi _) (by show (0 : ℕ) + jj.val = 32 * 0 + jj.val; omega)
  | ⟨1, _⟩, hj =>
    exact concatenate_apply_piece (t := S128x128) 1 [⟨S128x32, c 0⟩, ⟨S128x32, c 1⟩, ⟨S128x32, c 2⟩, ⟨S128x32, c 3⟩] h _ 1 (by show 1 < 4; omega)
      S128x32 (c 1) rfl rfl 32 rfl (ix2 r jj) (hi _) (by show (32 : ℕ) + jj.val = 32 * 1 + jj.val; omega)
  | ⟨2, _⟩, hj =>
    exact concatenate_apply_piece (t := S128x128) 1 [⟨S128x32, c 0⟩, ⟨S128x32, c 1⟩, ⟨S128x32, c 2⟩, ⟨S128x32, c 3⟩] h _ 2 (by show 2 < 4; omega)
      S128x32 (c 2) rfl rfl 64 rfl (ix2 r jj) (hi _) (by show (64 : ℕ) + jj.val = 32 * 2 + jj.val; omega)
  | ⟨3, _⟩, hj =>
    exact concatenate_apply_piece (t := S128x128) 1 [⟨S128x32, c 0⟩, ⟨S128x32, c 1⟩, ⟨S128x32, c 2⟩, ⟨S128x32, c 3⟩] h _ 3 (by show 3 < 4; omega)
      S128x32 (c 3) rfl rfl 96 rfl (ix2 r jj) (hi _) (by show (96 : ℕ) + jj.val = 32 * 3 + jj.val; omega)

/-- The accumulator after the body, as the printed body computes it from the point's blocks and the accumulator before. -/
def step (x0 x1 : Vec Ideal S128x128 .f32) (x2 : Vec Ideal S128x128x4 .f32) (acc : Vec Ideal S128x128 .f32) : FVec Ideal S128x128 .f32 :=
  k0_pay1 x0
    (k0_pay4 x0 (View.ld x2 (Rect.unit ![0, 0, 0] ![32, 128, 4] inb_S128x128x4_S32x128x4_0_0_0))
      (View.ld x1 (Rect.unit ![0, 0] ![32, 128] inb_S128x128_S32x128_0_0)))
    (k0_pay5 x0 (View.ld x2 (Rect.unit ![32, 0, 0] ![32, 128, 4] inb_S128x128x4_S32x128x4_32_0_0))
      (View.ld x1 (Rect.unit ![32, 0] ![32, 128] inb_S128x128_S32x128_32_0)))
    (k0_pay8 x0 (k0_pay6 (View.ld x2 (Rect.unit ![64, 0, 0] ![32, 128, 4] inb_S128x128x4_S32x128x4_64_0_0)))
      (k0_pay7 (View.ld x2 (Rect.unit ![64, 0, 0] ![32, 128, 4] inb_S128x128x4_S32x128x4_64_0_0)))
      (View.ld x1 (Rect.unit ![64, 0] ![32, 128] inb_S128x128_S32x128_64_0)))
    (View.ld x1 (Rect.unit ![96, 0] ![32, 128] inb_S128x128_S32x128_96_0))
    (k0_pay10 (View.ld x2 (Rect.unit ![96, 0, 0] ![32, 128, 4] inb_S128x128x4_S32x128x4_96_0_0))
      (View.ld x1 (Rect.unit ![96, 0] ![32, 128] inb_S128x128_S32x128_96_0)))
    (k0_pay11 (View.ld x2 (Rect.unit ![96, 0, 0] ![32, 128, 4] inb_S128x128x4_S32x128x4_96_0_0))) acc

/-- The chunks of a point: chunk `q` is computed from rows `32q … 32q + 31` of the two blocks. -/
def chunks (x0 x1 : Vec Ideal S128x128 .f32) (x2 : Vec Ideal S128x128x4 .f32) : Fin 4 → FVec Ideal S128x32 .f32 :=
  ![chunk x0 (View.ld x2 (Rect.unit ![0, 0, 0] ![32, 128, 4] inb_S128x128x4_S32x128x4_0_0_0))
      (View.ld x1 (Rect.unit ![0, 0] ![32, 128] inb_S128x128_S32x128_0_0)),
    chunk x0 (View.ld x2 (Rect.unit ![32, 0, 0] ![32, 128, 4] inb_S128x128x4_S32x128x4_32_0_0))
      (View.ld x1 (Rect.unit ![32, 0] ![32, 128] inb_S128x128_S32x128_32_0)),
    chunk x0 (View.ld x2 (Rect.unit ![64, 0, 0] ![32, 128, 4] inb_S128x128x4_S32x128x4_64_0_0))
      (View.ld x1 (Rect.unit ![64, 0] ![32, 128] inb_S128x128_S32x128_64_0)),
    chunk x0 (View.ld x2 (Rect.unit ![96, 0, 0] ![32, 128, 4] inb_S128x128x4_S32x128x4_96_0_0))
      (View.ld x1 (Rect.unit ![96, 0] ![32, 128] inb_S128x128_S32x128_96_0))]

/-- The body's update is the accumulator plus the four chunks side by side. -/
theorem step_eq (x0 x1 : Vec Ideal S128x128 .f32) (x2 : Vec Ideal S128x128x4 .f32) (acc : Vec Ideal S128x128 .f32) :
    step x0 x1 x2 acc = addf acc (concatenate S128x128 1
      [⟨S128x32, chunks x0 x1 x2 0⟩, ⟨S128x32, chunks x0 x1 x2 1⟩, ⟨S128x32, chunks x0 x1 x2 2⟩, ⟨S128x32, chunks x0 x1 x2 3⟩]
      concatenates_S128x32_S128x32_S128x32_S128x32_S128x128_d1) := by
  have e : step x0 x1 x2 acc = shapeCast S128x128 (addf acc (concatenate S128x128 1
      [⟨S128x32, chunks x0 x1 x2 0⟩, ⟨S128x32, chunks x0 x1 x2 1⟩, ⟨S128x32, chunks x0 x1 x2 2⟩, ⟨S128x32, chunks x0 x1 x2 3⟩]
      concatenates_S128x32_S128x32_S128x32_S128x32_S128x128_d1)) shapeCasts_S128x128_S128x128 := rfl
  rw [e, shapeCast_self]

/-- Entry `(jj, kk)`-wise, chunk `q` reads rows `32q + jj` of the blocks. -/
theorem chunks_apply (x0 x1 : Vec Ideal S128x128 .f32) (x2 : Vec Ideal S128x128x4 .f32) (r : Fin 128) (q : Fin 4) (jj : Fin 32)
    (hj : 32 * q.val + jj.val < 128) :
    chunks x0 x1 x2 q (ix2 r jj)
      = ∑ kk : Fin 128, term (x0 (ix2 r kk)) (fun a => x2 (ix3 ⟨32 * q.val + jj.val, hj⟩ kk a)) (x1 (ix2 ⟨32 * q.val + jj.val, hj⟩ kk)) := by
  match q, hj with
  | ⟨0, _⟩, hj => exact chunk_rows_apply x0 x1 x2 0 _ _ r jj ⟨_, hj⟩ (by show 32 * 0 + jj.val = 0 + jj.val; omega)
  | ⟨1, _⟩, hj => exact chunk_rows_apply x0 x1 x2 32 _ _ r jj ⟨_, hj⟩ (by show 32 * 1 + jj.val = 32 + jj.val; omega)
  | ⟨2, _⟩, hj => exact chunk_rows_apply x0 x1 x2 64 _ _ r jj ⟨_, hj⟩ (by show 32 * 2 + jj.val = 64 + jj.val; omega)
  | ⟨3, _⟩, hj => exact chunk_rows_apply x0 x1 x2 96 _ _ r jj ⟨_, hj⟩ (by show 32 * 3 + jj.val = 96 + jj.val; omega)

/-- THE UPDATE AT COORDINATES: the accumulator at `(r, j)` grows by the sum over the block's columns of the summands. -/
theorem step_apply (x0 x1 : Vec Ideal S128x128 .f32) (x2 : Vec Ideal S128x128x4 .f32) (acc : Vec Ideal S128x128 .f32)
    (r j : Fin 128) :
    step x0 x1 x2 acc (ix2 r j)
      = acc (ix2 r j) + ∑ kk : Fin 128, term (x0 (ix2 r kk)) (fun a => x2 (ix3 j kk a)) (x1 (ix2 j kk)) := by
  rw [step_eq]
  show acc (ix2 r j) + concatenate S128x128 1 _ _ (ix2 r j) = _
  have hq : j.val / 32 < 4 := by have := j.isLt; omega
  have hjj : j.val % 32 < 32 := Nat.mod_lt _ (by decide)
  have hj : 32 * (⟨j.val / 32, hq⟩ : Fin 4).val + (⟨j.val % 32, hjj⟩ : Fin 32).val < 128 := by
    show 32 * (j.val / 32) + j.val % 32 < 128; have := j.isLt; omega
  have ej : j = ⟨32 * (⟨j.val / 32, hq⟩ : Fin 4).val + (⟨j.val % 32, hjj⟩ : Fin 32).val, hj⟩ :=
    Fin.ext (by show j.val = 32 * (j.val / 32) + j.val % 32; omega)
  have e := concat4_apply (chunks x0 x1 x2) concatenates_S128x32_S128x32_S128x32_S128x32_S128x128_d1 r ⟨j.val / 32, hq⟩ ⟨j.val % 32, hjj⟩ hj
  rw [← ej] at e
  rw [e, chunks_apply x0 x1 x2 r _ _ hj, ← ej]

end Cert.KernelIdeal.Body

end
-- ==== Proof.Pieces.lean ====
/-
  What each control case of the body leaves behind, as values.

  The body has three cases by the position `k` of the grid point on the reduction axis: the first point of a run
  (`k = 0`: the accumulator is zeroed, then updated), a middle point (updated), the last point (`k = 7`: updated, then
  the output block is written as accumulator plus bias). In every case the accumulator ends at `step` of the point's
  blocks over what it held before (over the zero block at a first point); at a last point the output block ends at the
  accumulator's new contents plus the bias row repeated down the batch rows.
-/
import proofs.«157324_j44813688767076_2_alg».proof.Proof.Gen.KernelIdeal.Frame
import proofs.«157324_j44813688767076_2_alg».proof.Proof.Step
import Idealize.ShloMosaic.Lib.Pipeline.Value
import Idealize.ShloMosaic.Lib.ValueLayout
import Idealize.ShloMosaic.Lib.Tactic

noncomputable section

namespace Cert.KernelIdeal.Pieces

open Cert.KernelIdeal Cert.KernelIdeal.Gen Cert.KernelIdeal.Body Idealize.ShloMosaic Idealize.ShloMosaic.TcCoe Idealize.SL.Sem
open Idealize.ShloMosaic.ValueIdx

theorem hz : (![0, 0] : Fin 2 → Nat) = fun _ => 0 := funext fun a => by fin_cases a <;> rfl

/-- The zero block a first point stores into the accumulator. -/
abbrev zeroBlock : FVec Ideal S128x128 .f32 := k0_pay3

theorem zeroBlock_apply (y : S128x128.Idx) : zeroBlock y = 0 := by
  show shapeCast S128x128 (broadcast S128x128 (Scalar.ofBits (F := Ideal) .f32 0x00000000#32)) shapeCasts_S128x128_S128x128 y = 0
  rw [shapeCast_self]
  exact Ideal.ofBits_zero_f32

/-- A MIDDLE point leaves the accumulator at `step` over what the point before left. -/
theorem sout_B (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128x4 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (hc0 : ¬cond0_0 i) (hc1 : ¬cond0_1 i)
    (x0 : Vec Ideal S128x128 .f32) (x1 : Vec Ideal S128x128 .f32) (x2 : Vec Ideal S128x128x4 .f32) (x3 : Vec Ideal S1x128 .f32) (xs0 : Vec Ideal S128x128 .f32) :
    sout0_B_0 c i arg3 harg3 arg4 harg4 arg5 harg5 arg6 harg6 arg7 harg7 arg8 harg8 hc0 hc1 x0 x1 x2 x3 xs0 = step x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg8.read_unread,
    View.ld_unit_zero (S := S128x128) hz]
  rfl

/-- A LAST point leaves the accumulator at `step` over what the point before left, too. -/
theorem sout_C (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128x4 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (hc0 : ¬cond0_0 i) (hc1 : cond0_1 i)
    (x0 : Vec Ideal S128x128 .f32) (x1 : Vec Ideal S128x128 .f32) (x2 : Vec Ideal S128x128x4 .f32) (x3 : Vec Ideal S1x128 .f32) (xs0 : Vec Ideal S128x128 .f32) :
    sout0_C_0 c i arg3 harg3 arg4 harg4 arg5 harg5 arg6 harg6 arg7 harg7 arg8 harg8 hc0 hc1 x0 x1 x2 x3 xs0 = step x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg8.read_unread,
    View.ld_unit_zero (S := S128x128) hz]
  rfl

/-- A FIRST point leaves the accumulator at `step` over the zero block it has just stored. -/
theorem sout_A (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128x4 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (hc0 : cond0_0 i) (hc1 : ¬cond0_1 i)
    (x0 : Vec Ideal S128x128 .f32) (x1 : Vec Ideal S128x128 .f32) (x2 : Vec Ideal S128x128x4 .f32) (x3 : Vec Ideal S1x128 .f32) :
    sout0_A_0 c i arg3 harg3 arg4 harg4 arg5 harg5 arg6 harg6 arg7 harg7 arg8 harg8 hc0 hc1 x0 x1 x2 x3 = step x0 x1 x2 zeroBlock := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S128x128) hz, View.readCov_unit_zero (S := S128x128) _ hz]
  simp only [View.readAt_eq_ld, harg3.read_unread, harg4.read_unread, harg5.read_unread,
    View.ld_unit_zero (S := S128x128) hz]
  rfl

/-- The output block a last point writes: the accumulator's new contents plus the bias row. -/
def biased (acc : Vec Ideal S128x128 .f32) (x3 : Vec Ideal S1x128 .f32) : FVec Ideal S128x128 .f32 := k0_pay2 acc x3

theorem biased_apply (acc : Vec Ideal S128x128 .f32) (x3 : Vec Ideal S1x128 .f32) (r j : Fin 128) :
    biased acc x3 (ix2 r j) = acc (ix2 r j) + x3 (ix2 (0 : Fin 1) j) := by
  show acc (ix2 r j) + broadcastTo S128x128 (shapeCast S1x128 x3 shapeCasts_S1x128_S1x128) broadcasts_S1x128_S128x128 (ix2 r j) = _
  rw [broadcastTo_1b_ab_apply, shapeCast_self]

/-- A LAST point leaves in the output's staging buffer the updated accumulator plus the bias row. -/
theorem out_C (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128x4 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (hc0 : ¬cond0_0 i) (hc1 : cond0_1 i)
    (x0 : Vec Ideal S128x128 .f32) (x1 : Vec Ideal S128x128 .f32) (x2 : Vec Ideal S128x128x4 .f32) (x3 : Vec Ideal S1x128 .f32) (xs0 : Vec Ideal S128x128 .f32) :
    out0_C_4 c i arg3 harg3 arg4 harg4 arg5 harg5 arg6 harg6 arg7 harg7 arg8 harg8 hc0 hc1 x0 x1 x2 x3 xs0 = biased (step x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S128x128) _ hz]
  simp only [View.readAt_eq_ld, harg3.read_unread, harg4.read_unread, harg5.read_unread, harg6.read_unread, harg8.read_unread,
    View.ld_unit_zero (S := S128x128) hz, View.ld_unit_zero (S := S1x128) hz]
  rfl

end Cert.KernelIdeal.Pieces

end
-- ==== Proof.Blocks.lean ====
/-
  The blocks a grid point works on, read off the argument arrays.

  Point `t` of the `1 × 4 × 8` grid has output-row block `q = t / 8` and column block `s = t % 8`. Its block of `x` is
  columns `128 s … 128 s + 127` of all 128 batch rows; its blocks of `W` and of the logits are rows `128 q … 128 q + 127`
  and those columns; its block of the bias row is entries `128 q … 128 q + 127`; the output block it belongs to is columns
  `128 q … 128 q + 127` of the `[128, 512]` result. The bias row the region sees is the bias vector recast to `[1, 512]`.
-/
import proofs.«157324_j44813688767076_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps over the grid: which block of its array each window is on at point `t`. -/
theorem idx_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 3) = t.val / 8 ∧ win0_2.index t (1 : Fin 3) = t.val % 8 ∧ win0_2.index t (2 : Fin 3) = 0
    ∧ win0_3.index t (0 : Fin 2) = 0 ∧ win0_3.index t (1 : Fin 2) = t.val / 8
    ∧ win0_4.index t (0 : Fin 2) = 0 ∧ win0_4.index t (1 : Fin 2) = t.val / 8 :=
  (by decide +kernel : ∀ t : Fin grid0.N, _)

/-- The block of `x` at point `t`: entry `(r, kk)` is `x[r, 128·(t % 8) + kk]`. -/
theorem x_blk (c : Dev nD) (t : Fin cfg0.N) (r kk : Fin 128) (k : Fin 1024) (hk : k.val = 128 * (t.val % 8) + kk.val) :
    (iblk m c 0 t : Vec F S128x128 .f32) (ix2 r kk) = m ((c : Thread nD τ).loc main_arg0) (ix2 r k) := by
  obtain ⟨e0, e1, -⟩ := idx_facts t
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 128 + 1 * r.val = r.val; omega
  | ⟨1, _⟩ => show win0_0.index t (1 : Fin 2) * 128 + 1 * kk.val = k.val; omega

/-- The block of `W` at point `t`: entry `(j, kk)` is `W[128·(t / 8) + j, 128·(t % 8) + kk]`. -/
theorem w_blk (c : Dev nD) (t : Fin cfg0.N) (j kk : Fin 128) (o : Fin 512) (k : Fin 1024)
    (ho : o.val = 128 * (t.val / 8) + j.val) (hk : k.val = 128 * (t.val % 8) + kk.val) :
    (iblk m c 1 t : Vec F S128x128 .f32) (ix2 j kk) = m ((c : Thread nD τ).loc main_arg1) (ix2 o k) := by
  obtain ⟨-, -, e0, e1, -⟩ := idx_facts t
  unfold iblk
  rw [View.read_apply]
  show V m c main_arg1 _ = _
  refine (congrFun (V_main_arg1 m c) _).trans (congrArg _ (funext fun a => Fin.ext ?_))
  match a with
  | ⟨0, _⟩ => show win0_1.index t (0 : Fin 2) * 128 + 1 * j.val = o.val; omega
  | ⟨1, _⟩ => show win0_1.index t (1 : Fin 2) * 128 + 1 * kk.val = k.val; omega

/-- The block of logits at point `t`: entry `(j, kk, a)` is `θ[128·(t / 8) + j, 128·(t % 8) + kk, a]`. -/
theorem th_blk (c : Dev nD) (t : Fin cfg0.N) (j kk : Fin 128) (a : Fin 4) (o : Fin 512) (k : Fin 1024)
    (ho : o.val = 128 * (t.val / 8) + j.val) (hk : k.val = 128 * (t.val % 8) + kk.val) :
    (iblk m c 2 t : Vec F S128x128x4 .f32) (ix3 j kk a) = m ((c : Thread nD τ).loc main_arg3) (ix3 o k a) := by
  obtain ⟨-, -, -, -, e0, e1, e2, -⟩ := idx_facts t
  unfold iblk
  rw [View.read_apply]
  show V m c main_arg3 _ = _
  refine (congrFun (V_main_arg3 m c) _).trans (congrArg _ (funext fun ax => Fin.ext ?_))
  match ax with
  | ⟨0, _⟩ => show win0_2.index t (0 : Fin 3) * 128 + 1 * j.val = o.val; omega
  | ⟨1, _⟩ => show win0_2.index t (1 : Fin 3) * 128 + 1 * kk.val = k.val; omega
  | ⟨2, _⟩ => show win0_2.index t (2 : Fin 3) * 4 + 1 * a.val = a.val; omega

/-- The bias row as the region finds it: the bias vector recast to one row. -/
theorem V_bias (c : Dev nD) :
    (V m c main_v0 : S1x512.Idx → Elt F .f32) = shapeCast S1x512 (m ((c : Thread nD τ).loc main_arg2)) shapeCasts_S512_S1x512 := by
  dsimp only [Gen.V, Gen.hostOps0]; after_results; rfl

/-- The block of the bias row at point `t`: entry `(0, j)` is `b[128·(t / 8) + j]`. -/
theorem b_blk (c : Dev nD) (t : Fin cfg0.N) (j : Fin 128) (o : Fin 512) (ho : o.val = 128 * (t.val / 8) + j.val) :
    (iblk m c 3 t : Vec F S1x128 .f32) (ix2 (0 : Fin 1) j) = m ((c : Thread nD τ).loc main_arg2) (ix1 o) := by
  obtain ⟨-, -, -, -, -, -, -, e0, e1, -⟩ := idx_facts t
  unfold iblk
  rw [View.read_apply]
  show V m c main_v0 _ = _
  refine (congrFun (V_bias m c) _).trans ?_
  refine (congrArg _ (?_ : _ = ix2 (0 : Fin 1) o)).trans (shapeCast_a_1a_apply _ shapeCasts_S512_S1x512 0 o)
  funext a; apply Fin.ext
  match a with
  | ⟨0, _⟩ => show win0_3.index t (0 : Fin 2) * 1 + 1 * 0 = 0; omega
  | ⟨1, _⟩ => show win0_3.index t (1 : Fin 2) * 128 + 1 * j.val = o.val; omega

/-- Entry `(r, j)` of the output block of point `t` is entry `(r, 128·(t / 8) + j)` of the result array. -/
theorem out_emb (t : Fin cfg0.N) (r j : Fin 128) (o : Fin 512) (ho : o.val = 128 * (t.val / 8) + j.val) :
    ((cfg0.win 4).blk t).view.emb (ix2 r j) = (ix2 r o : S128x512.Idx) := by
  obtain ⟨-, -, -, -, -, -, -, -, -, e0, e1⟩ := idx_facts t
  funext a; apply Fin.ext
  match a with
  | ⟨0, _⟩ => show win0_4.index t (0 : Fin 2) * 128 + 1 * r.val = r.val; omega
  | ⟨1, _⟩ => show win0_4.index t (1 : Fin 2) * 128 + 1 * j.val = o.val; omega

/-- An index of the result array is in point `t`'s output block iff each coordinate is in the block's range on its axis. -/
theorem mem_out_blk (t : Fin cfg0.N) (i : S128x512.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v1).slice (win0_4.rect t)).set ↔ _
  rw [View.set_slice_whole, Rect.mem_set_unit]
  exact Iff.rfl

end Cert.KernelIdeal.Blocks

end
-- ==== Proof.Fold.lean ====
/-
  The accumulator over a run of eight grid points, and the result array.

  The grid is `1 × 4 × 8`: for each of the four blocks `q` of 128 output rows the eight column blocks `s = 0 … 7` are
  visited in turn. The accumulator is zeroed at `s = 0` and at every point grows, at `(r, j)`, by that point's addend
  `∑ kk, term (x[r, 128 s + kk]) (θ[128 q + j, 128 s + kk, ·]) (W[128 q + j, 128 s + kk])`; after `s = 7` it holds the sum of the
  eight addends, which is the sum over all 1024 columns, and the output block written then is that plus the bias:
  block `q` of `G`. The four output blocks tile the result array.
-/
import proofs.«157324_j44813688767076_2_alg».proof.Proof.Gen.KernelIdeal.Value
import proofs.«157324_j44813688767076_2_alg».proof.Proof.Pieces
import proofs.«157324_j44813688767076_2_alg».proof.Proof.Blocks
import Idealize.ShloMosaic.Lib.Pipeline.Value

noncomputable section

namespace Cert.KernelIdeal.Fold

open Cert.KernelIdeal Cert.KernelIdeal.Gen Cert.KernelIdeal.Value Cert.KernelIdeal.Body Cert.KernelIdeal.Pieces
open Cert.KernelIdeal.Blocks Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point's addend -/

/-- What a point with blocks `x0`, `x1`, `x2` adds to the accumulator at `y = (r, j)`. -/
def addv (x0 x1 : Vec Ideal S128x128 .f32) (x2 : Vec Ideal S128x128x4 .f32) (y : S128x128.Idx) : EReal :=
  ∑ kk : Fin 128, term (x0 (ix2 (y 0) kk)) (fun a => x2 (ix3 (y 1) kk a)) (x1 (ix2 (y 1) kk))

theorem step_at (x0 x1 : Vec Ideal S128x128 .f32) (x2 : Vec Ideal S128x128x4 .f32) (acc : Vec Ideal S128x128 .f32)
    (y : S128x128.Idx) : step x0 x1 x2 acc y = acc y + addv x0 x1 x2 y := by
  obtain ⟨r, j, rfl⟩ : ∃ (r j : Fin 128), y = ix2 r j := ⟨y 0, y 1, eq_ix2 y⟩
  exact step_apply x0 x1 x2 acc r j

/-- The addend of grid point `n` (zero past the grid, where it is never used). -/
def M (c : Dev nD) (n : ℕ) (y : S128x128.Idx) : EReal :=
  if h : n < cfg0.N then addv (iblk m c 0 ⟨n, h⟩) (iblk m c 1 ⟨n, h⟩) (iblk m c 2 ⟨n, h⟩) y else 0

/-! ## The three cases at a grid point -/

theorem soutA_pt (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t)
      = step (iblk m c 0 t) (iblk m c 1 t) (iblk m c 2 t) zeroBlock :=
  sout_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t)

theorem soutB_pt (c : Dev nD) (t : Fin cfg0.N) (hc0 : ¬cond0_0 (grid0.coords t)) (hc1 : ¬cond0_1 (grid0.coords t))
    (xs0 : Vec Ideal S128x128 .f32) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0
      = step (iblk m c 0 t) (iblk m c 1 t) (iblk m c 2 t) xs0 :=
  sout_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0

theorem soutC_pt (c : Dev nD) (t : Fin cfg0.N) (hc0 : ¬cond0_0 (grid0.coords t)) (hc1 : cond0_1 (grid0.coords t))
    (xs0 : Vec Ideal S128x128 .f32) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0
      = step (iblk m c 0 t) (iblk m c 1 t) (iblk m c 2 t) xs0 :=
  sout_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0

theorem outC_pt (c : Dev nD) (t : Fin cfg0.N) (hc0 : ¬cond0_0 (grid0.coords t)) (hc1 : cond0_1 (grid0.coords t))
    (xs0 : Vec Ideal S128x128 .f32) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0
      = biased (step (iblk m c 0 t) (iblk m c 1 t) (iblk m c 2 t) xs0) (iblk m c 3 t) :=
  out_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) xs0

/-! ## The accumulator after each point -/

/-- At the first point of a run the accumulator ends at zero plus the point's addend. -/
theorem scAt_first (c : Dev nD) (n : ℕ) (hb : n < cfg0.N) (h0 : n % 8 = 0) (acc : Vec Ideal S128x128 .f32) (y : S128x128.Idx) :
    scAt0_0 m c n hb acc y = 0 + M m c n y := by
  have h1 : ¬n % 8 = 7 := by omega
  unfold scAt0_0
  rw [dif_pos h0, dif_neg h1, soutA_pt m c ⟨n, hb⟩, step_at, zeroBlock_apply]
  unfold M
  rw [dif_pos hb]

/-- At every later point it grows by the point's addend. -/
theorem scAt_later (c : Dev nD) (n : ℕ) (hb : n < cfg0.N) (h0 : ¬n % 8 = 0) (acc : Vec Ideal S128x128 .f32) (y : S128x128.Idx) :
    scAt0_0 m c n hb acc y = acc y + M m c n y := by
  unfold scAt0_0
  rw [dif_neg h0]
  by_cases h1 : n % 8 = 7
  · rw [dif_pos h1, soutC_pt m c ⟨n, hb⟩, step_at]
    unfold M
    rw [dif_pos hb]
  · rw [dif_neg h1, soutB_pt m c ⟨n, hb⟩, step_at]
    unfold M
    rw [dif_pos hb]

/-- So after point `t` it holds the sum of the addends of the run's points up to `t`. -/
theorem scratch_at (c : Dev nD) (t : Fin cfg0.N) (y : S128x128.Idx) :
    (outsAt0 m c t.val t.isLt).2 y = 0 + ∑ s ∈ Finset.range (t.val % 8 + 1), M m c (8 * (t.val / 8) + s) y := by
  rw [soutsAt0_0_eq m c t]
  exact Pipeline.accAt_add_apply (β := EReal) (fun n h => scAt0_0 m c n h (VS0_0.read (Elt Ideal) VS0_0.junk)) (scAt0_0 m c)
    (fun _ => 0) (M m c) (8 * (t.val / 8)) 7
    (fun h i => scAt_first m c _ h (Nat.mul_mod_right 8 _) _ i)
    (fun n h acc i hlt hle => scAt_later m c n h (by omega) acc i)
    (t.val % 8) (by omega) _ y

/-- At the last point of a run the output block is the accumulator's new contents plus the bias row. -/
theorem out_at_last (c : Dev nD) (t : Fin cfg0.N) (h7 : t.val % 8 = 7) :
    (outsAt0 m c t.val t.isLt).1 = biased ((outsAt0 m c t.val t.isLt).2) (iblk m c 3 t) := by
  have h0 : ¬t.val % 8 = 0 := by omega
  rw [outsAt0_C m c t h0 h7]
  dsimp only
  rw [outC_pt m c t, soutC_pt m c t]

end Cert.KernelIdeal.Fold

end
-- ==== Proof.Final.lean ====
/-
  The kernel's result array is `G` of its arguments.

  The output block written after the last column block of output-row block `q` is the sum of the eight addends of the
  run plus the bias; regrouped, the eight sums over 128 columns are one sum over the 1024 columns, so the block is
  block `q` of `G` (`flushed_eq`). The point that writes the block containing the entry `(r, o)` is the last point of
  the run of `q = o / 128`, and these four blocks cover the array (`final`).
-/
import proofs.«157324_j44813688767076_2_alg».proof.Proof.Fold

noncomputable section

namespace Cert.KernelIdeal.Fold

open Cert.KernelIdeal Cert.KernelIdeal.Gen Cert.KernelIdeal.Value Cert.KernelIdeal.Body Cert.KernelIdeal.Pieces
open Cert.KernelIdeal.Blocks Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result: `G` of the four argument arrays as launched. -/
abbrev result (c : Dev nD) : Buf (Elt Ideal) ((c : Thread nD τ).loc main_v1) :=
  G (m ((c : Thread nD τ).loc main_arg0)) (m ((c : Thread nD τ).loc main_arg1)) (m ((c : Thread nD τ).loc main_arg2))
    (m ((c : Thread nD τ).loc main_arg3))

/-- The addend of column block `s` of the run of point `t`, at `(r, j)`, over the argument arrays. -/
theorem addend_eq (c : Dev nD) (t : Fin cfg0.N) (s : Fin 8) (r j : Fin 128) (o : Fin 512) (ho : o.val = 128 * (t.val / 8) + j.val) :
    M m c (8 * (t.val / 8) + s.val) (ix2 r j)
      = ∑ kk : Fin 128, term (m ((c : Thread nD τ).loc main_arg0) (ix2 r (col s kk)))
          (fun a => m ((c : Thread nD τ).loc main_arg3) (ix3 o (col s kk) a)) (m ((c : Thread nD τ).loc main_arg1) (ix2 o (col s kk))) := by
  have hN : cfg0.N = 32 := N_0
  have ht := t.isLt
  have hs := s.isLt
  have hb : 8 * (t.val / 8) + s.val < cfg0.N := by omega
  have e8 : (8 * (t.val / 8) + s.val) % 8 = s.val := by omega
  have e9 : (8 * (t.val / 8) + s.val) / 8 = t.val / 8 := by omega
  unfold M
  rw [dif_pos hb]
  refine Finset.sum_congr rfl fun kk _ => ?_
  have hk : (col s kk).val = 128 * ((⟨8 * (t.val / 8) + s.val, hb⟩ : Fin cfg0.N).val % 8) + kk.val := by
    show 128 * s.val + kk.val = 128 * ((8 * (t.val / 8) + s.val) % 8) + kk.val
    rw [e8]
  have ho' : o.val = 128 * ((⟨8 * (t.val / 8) + s.val, hb⟩ : Fin cfg0.N).val / 8) + j.val := by
    show o.val = 128 * ((8 * (t.val / 8) + s.val) / 8) + j.val
    rw [e9]; exact ho
  have e2 : (fun a : Fin 4 => (iblk m c 2 ⟨8 * (t.val / 8) + s.val, hb⟩ : Vec Ideal S128x128x4 .f32) (ix3 j kk a))
      = fun a => m ((c : Thread nD τ).loc main_arg3) (ix3 o (col s kk) a) :=
    funext fun a => th_blk m c _ j kk a o (col s kk) ho' hk
  show term ((iblk m c 0 ⟨8 * (t.val / 8) + s.val, hb⟩ : Vec Ideal S128x128 .f32) (ix2 r kk))
    (fun a => (iblk m c 2 ⟨8 * (t.val / 8) + s.val, hb⟩ : Vec Ideal S128x128x4 .f32) (ix3 j kk a))
    ((iblk m c 1 ⟨8 * (t.val / 8) + s.val, hb⟩ : Vec Ideal S128x128 .f32) (ix2 j kk)) = _
  rw [e2, x_blk m c _ r kk (col s kk) hk, w_blk m c _ j kk o (col s kk) ho' hk]

/-- WHAT A LAST POINT WRITES BACK is its block of `G` of the argument arrays. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hN : cfg0.N = 32 := N_0
  have ht := t.isLt
  rw [flushed4, out_at_last m c t h7]
  funext y
  obtain ⟨r, j, rfl⟩ : ∃ (r j : Fin 128), y = ix2 r j := ⟨y 0, y 1, eq_ix2 y⟩
  have ho : 128 * (t.val / 8) + j.val < 512 := by have := j.isLt; omega
  show biased ((outsAt0 m c t.val t.isLt).2) (iblk m c 3 t) (ix2 r j) = result m c (((cfg0.win 4).blk t).view.emb (ix2 r j))
  rw [out_emb t r j ⟨_, ho⟩ rfl, biased_apply, scratch_at, b_blk m c t j ⟨_, ho⟩ rfl, h7, zero_add, Finset.sum_range]
  show _ = (∑ k : Fin 1024, term _ _ _) + _
  rw [sum_cols]
  refine congrArg (· + _) (Finset.sum_congr rfl fun s _ => ?_)
  exact addend_eq m c t s r j ⟨_, ho⟩ rfl

/-- So the result array ends holding `G` of the arguments: the four last points' blocks cover it. -/
theorem final (c : Dev nD) : (dats m 0 c).arrAt 4 cfg0.N = result m c :=
  (dats m 0 c).arrAt_eq_of_cover 4 (result m c) (flushed_eq m c) fun i => by
    have hN : cfg0.N = 32 := N_0
    have h0 : (i 0).val < 128 := (i 0).isLt
    have h1 : (i 1).val < 512 := (i 1).isLt
    have ht : 8 * ((i 1).val / 128) + 7 < cfg0.N := by omega
    refine ⟨⟨8 * ((i 1).val / 128) + 7, ht⟩, (flush0_4 _).mpr (by show (8 * ((i 1).val / 128) + 7) % 8 = 7; omega), ?_⟩
    rw [mem_out_blk]
    obtain ⟨-, -, -, -, -, -, -, -, -, e0, e1⟩ := idx_facts ⟨8 * ((i 1).val / 128) + 7, ht⟩
    have e1' : win0_4.index ⟨8 * ((i 1).val / 128) + 7, ht⟩ (1 : Fin 2) = (8 * ((i 1).val / 128) + 7) / 8 := e1
    intro a
    match a with
    | ⟨0, _⟩ =>
      show win0_4.index ⟨8 * ((i 1).val / 128) + 7, ht⟩ (0 : Fin 2) * 128 ≤ (i 0).val
        ∧ (i 0).val < win0_4.index ⟨8 * ((i 1).val / 128) + 7, ht⟩ (0 : Fin 2) * 128 + 128
      rw [e0]; omega
    | ⟨1, _⟩ =>
      show win0_4.index ⟨8 * ((i 1).val / 128) + 7, ht⟩ (1 : Fin 2) * 128 ≤ (i 1).val
        ∧ (i 1).val < win0_4.index ⟨8 * ((i 1).val / 128) + 7, ht⟩ (1 : Fin 2) * 128 + 128
      rw [e1']; omega

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Fold

end
-- ==== Proof.RefIsG.lean ====
/-
  The reference computes `G`.

  Read one operation at a time at coordinates: the logits divided by one are the logits; their maximum over the atoms,
  taken once more against `-∞`, is the shift; the shifted exponentials over their sum (started from zero) are the softmax
  weights; atoms 1, 2, 3 mix `W`, `tanh W`, `sin W` into the effective weight; the products with `x`, through `tanh`, are
  summed over the 1024 columns from zero, and the bias is added.
-/
import proofs.«157324_j44813688767076_2_alg».proof.Proof.Gen.ReferenceIdeal.Read
import proofs.«157324_j44813688767076_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.ValueIdx

/-- The logits divided by the temperature, which is one, are the logits. -/
theorem v1_at (x3 : (⟨S512x1024x4, .f32⟩ : BufTy).Contents (Elt Ideal)) (i : S512x1024x4.Idx) : val_main_v1 (F := Ideal) x3 i = x3 i := by
  rw [val_main_v1_apply, val_main_v0_apply, val_main_cst_apply]
  exact div_ofBits_one _

theorem reduces_atoms : S512x1024x4.Reduces [2] S512x1024 := by decide

/-- The index `(o, k)` with atom `a` inserted is `(o, k, a)`. -/
theorem lift_atoms (o : Fin 512) (k : Fin 1024) (a : Fin 4) : reduces_atoms.lift (ix2 o k) a = ix3 o k a :=
  funext fun ax => Fin.ext (by match ax with | ⟨0, _⟩ => rfl | ⟨1, _⟩ => rfl | ⟨2, _⟩ => rfl)

/-- The maximum over the atoms, read at `(o, k)`: the fold of `max` over the four logits from `-∞`. -/
theorem v2_at (x3 : (⟨S512x1024x4, .f32⟩ : BufTy).Contents (Elt Ideal)) (o : Fin 512) (k : Fin 1024) :
    val_main_v2 (F := Ideal) x3 (ix2 o k) = (Finset.univ : Finset (Fin 4)).fold max ninf (fun a => x3 (ix3 o k a)) := by
  have e : val_main_v2 (F := Ideal) x3 (ix2 o k)
      = (Finset.univ : Finset (Fin 4)).fold max ninf ((val_main_v1 (F := Ideal) x3) ∘ reduces_atoms.lift (ix2 o k)) := by
    unfold val_main_v2
    exact Host.reduce_eq_fold_single (FloatOps.maximumf (F := Ideal) (φ := .f32)) (val_main_v1 (F := Ideal) x3) (val_main_cst_0 (F := Ideal))
      reducesTo_S512x1024x4_S512x1024_d2 reduces_atoms h_S_ (ix2 o k)
  rw [e]
  refine congrArg (Finset.univ.fold max ninf) (funext fun (a : Fin 4) => ?_)
  exact (v1_at x3 _).trans (congrArg x3 (lift_atoms o k a))

/-- The shift. -/
theorem v4_at (x3 : (⟨S512x1024x4, .f32⟩ : BufTy).Contents (Elt Ideal)) (o : Fin 512) (k : Fin 1024) :
    val_main_v4 (F := Ideal) x3 (ix2 o k) = shift (fun a => x3 (ix3 o k a)) := by
  rw [val_main_v4_apply, val_main_v3_apply, val_main_cst_1_apply, v2_at]
  rfl

/-- The shifted exponentials. -/
theorem v8_at (x3 : (⟨S512x1024x4, .f32⟩ : BufTy).Contents (Elt Ideal)) (o : Fin 512) (k : Fin 1024) (a : Fin 4) :
    val_main_v8 (F := Ideal) x3 (ix3 o k a) = Ideal.exp (x3 (ix3 o k a) - shift (fun a' => x3 (ix3 o k a'))) := by
  have e : idx_main_v5 (idx_main_v6 (ix3 o k a)) = ix2 o k :=
    funext fun ax => by match ax with | ⟨0, _⟩ => rfl | ⟨1, _⟩ => rfl
  rw [val_main_v8_apply, val_main_v7_apply, val_main_v6_apply, val_main_v5_apply, e, v4_at, v1_at]
  rfl

/-- The softmax weights. -/
theorem v12_at (x3 : (⟨S512x1024x4, .f32⟩ : BufTy).Contents (Elt Ideal)) (o : Fin 512) (k : Fin 1024) (a : Fin 4) :
    val_main_v12 (F := Ideal) x3 (ix3 o k a) = weight (fun a' => x3 (ix3 o k a')) a := by
  have e : idx_main_v10 (idx_main_v11 (ix3 o k a)) = ix2 o k :=
    funext fun ax => by match ax with | ⟨0, _⟩ => rfl | ⟨1, _⟩ => rfl
  have e9 : ∀ a' : Fin 4, idx_main_v9 (ix2 o k) a' = ix3 o k a' := fun a' =>
    funext fun ax => by match ax with | ⟨0, _⟩ => rfl | ⟨1, _⟩ => rfl | ⟨2, _⟩ => rfl
  rw [val_main_v12_apply, val_main_v11_apply, val_main_v10_apply, e, val_main_v9_apply, val_main_cst_2_apply, v8_at]
  simp only [e9, v8_at]
  show Ideal.div _ (Ideal.ofBits .f32 0x00000000#32 + _) = _
  rw [Ideal.ofBits_zero_f32, zero_add]
  rfl

/-- A `[512, 1024]` index through the reshape from `[512, 1024, 1]`. -/
theorem idx_reshape (o : Fin 512) (k : Fin 1024) : idx_main_v14 (ix2 o k) = ix3 o k (0 : Fin 1) :=
  funext fun ax => Fin.ext (by
    have ho := o.isLt; have hk := k.isLt
    match ax with
    | ⟨0, _⟩ => show (o.val * 1024 + k.val) / 1024 = o.val; omega
    | ⟨1, _⟩ => show (o.val * 1024 + k.val) / 1 % 1024 = k.val; omega
    | ⟨2, _⟩ => rfl)

/-- The effective weights. -/
theorem v25_at (x1 : (⟨S512x1024, .f32⟩ : BufTy).Contents (Elt Ideal)) (x3 : (⟨S512x1024x4, .f32⟩ : BufTy).Contents (Elt Ideal)) (o : Fin 512) (k : Fin 1024) :
    val_main_v25 (F := Ideal) x1 x3 (ix2 o k) = mix (fun a => x3 (ix3 o k a)) (x1 (ix2 o k)) := by
  have e13 : idx_main_v13 (ix3 o k (0 : Fin 1)) = ix3 o k (1 : Fin 4) :=
    funext fun ax => by match ax with | ⟨0, _⟩ => rfl | ⟨1, _⟩ => rfl | ⟨2, _⟩ => rfl
  have e16 : idx_main_v16 (ix3 o k (0 : Fin 1)) = ix3 o k (2 : Fin 4) :=
    funext fun ax => by match ax with | ⟨0, _⟩ => rfl | ⟨1, _⟩ => rfl | ⟨2, _⟩ => rfl
  have e21 : idx_main_v21 (ix3 o k (0 : Fin 1)) = ix3 o k (3 : Fin 4) :=
    funext fun ax => by match ax with | ⟨0, _⟩ => rfl | ⟨1, _⟩ => rfl | ⟨2, _⟩ => rfl
  rw [val_main_v25_apply, val_main_v20_apply, val_main_v15_apply, val_main_v19_apply, val_main_v24_apply,
    val_main_v14_apply, val_main_v17_apply, val_main_v22_apply, val_main_v13_apply, val_main_v16_apply, val_main_v21_apply,
    val_main_v18_apply, val_main_v23_apply]
  rw [show idx_main_v17 (ix2 o k) = ix3 o k (0 : Fin 1) from idx_reshape o k,
    show idx_main_v22 (ix2 o k) = ix3 o k (0 : Fin 1) from idx_reshape o k, idx_reshape, e13, e16, e21, v12_at, v12_at, v12_at]
  rfl

/-- One summand. -/
theorem v31_at (x0 : (⟨S128x1024, .f32⟩ : BufTy).Contents (Elt Ideal)) (x1 : (⟨S512x1024, .f32⟩ : BufTy).Contents (Elt Ideal)) (x3 : (⟨S512x1024x4, .f32⟩ : BufTy).Contents (Elt Ideal)) (r : Fin 128) (o : Fin 512) (k : Fin 1024) :
    val_main_v31 (F := Ideal) x0 x1 x3 (ix3 r o k) = term (x0 (ix2 r k)) (fun a => x3 (ix3 o k a)) (x1 (ix2 o k)) := by
  have e0 : idx_main_v26 (idx_main_v28 (ix3 r o k)) = ix2 r k :=
    funext fun ax => by match ax with | ⟨0, _⟩ => rfl | ⟨1, _⟩ => rfl
  have e1 : idx_main_v27 (idx_main_v29 (ix3 r o k)) = ix2 o k :=
    funext fun ax => by match ax with | ⟨0, _⟩ => rfl | ⟨1, _⟩ => rfl
  rw [val_main_v31_apply, val_main_v30_apply, val_main_v28_apply, val_main_v26_apply, val_main_v29_apply, val_main_v27_apply,
    e0, e1, v25_at]
  rfl

/-- THE REFERENCE IS `G`. -/
theorem result_eq (x0 : (⟨S128x1024, .f32⟩ : BufTy).Contents (Elt Ideal)) (x1 : (⟨S512x1024, .f32⟩ : BufTy).Contents (Elt Ideal)) (x2 : (⟨S512, .f32⟩ : BufTy).Contents (Elt Ideal)) (x3 : (⟨S512x1024x4, .f32⟩ : BufTy).Contents (Elt Ideal)) :
    val_main_v35 (F := Ideal) x0 x1 x2 x3 = G x0 x1 x2 x3 := by
  funext i
  obtain ⟨r, o, rfl⟩ : ∃ (r : Fin 128) (o : Fin 512), i = ix2 r o := ⟨i 0, i 1, eq_ix2 i⟩
  have e32 : ∀ k : Fin 1024, idx_main_v32 (ix2 r o) k = ix3 r o k := fun k =>
    funext fun ax => by match ax with | ⟨0, _⟩ => rfl | ⟨1, _⟩ => rfl | ⟨2, _⟩ => rfl
  have e33 : idx_main_v33 (idx_main_v34 (ix2 r o)) = ix1 o :=
    funext fun ax => by match ax with | ⟨0, _⟩ => rfl
  rw [val_main_v35_apply, val_main_v32_apply, val_main_v34_apply, val_main_v33_apply, e33, val_main_cst_3_apply]
  simp only [e32, v31_at]
  show (Ideal.ofBits .f32 0x00000000#32 + _) + _ = _
  rw [Ideal.ofBits_zero_f32, zero_add]
  rfl

end Cert.ReferenceIdeal.RefValue

end
-- ==== Proof.lean ====
/-
  The kernel computes, for `x : [128, 1024]`, `W : [512, 1024]`, `b : [512]` and logits `θ : [512, 1024, 4]`,
      y[r, o] = ∑ₖ tanh (x[r, k] · weff[o, k]) + b[o],
  where `weff[o, k]` mixes `W[o, k]`, `tanh W[o, k]`, `sin W[o, k]` by the softmax weights of `θ[o, k, ·]` (atoms 1, 2, 3).
  It tiles the output rows into four blocks and the columns into eight, accumulating the column blocks' partial sums in a
  scratch buffer; the reference computes the same sum in one piece. On the extended reals both are the function `G` of
  Proof/Spec.lean: the kernel's product of each logit with one and the reference's quotient of it by one change nothing,
  sums may be regrouped freely (addition of extended reals is associative and commutative), and every other operation
  is the same on both sides. Finiteness of the inputs is not used.

  Proof/Body.lean, Step.lean: the body's arithmetic at coordinates. Proof/Pieces.lean: what each control case leaves.
  Proof/Blocks.lean: a point's blocks as parts of the arguments. Proof/Fold.lean, Final.lean: the accumulation over a run
  of eight points and the result array. Proof/RefIsG.lean: the reference's operations at coordinates.
-/
import proofs.«157324_j44813688767076_2_alg».proof.Defs
import proofs.«157324_j44813688767076_2_alg».proof.Proof.Gen.Kernel
import proofs.«157324_j44813688767076_2_alg».proof.Proof.Gen.Kernel.Skeleton
import proofs.«157324_j44813688767076_2_alg».proof.Proof.Gen.Kernel.Launch
import proofs.«157324_j44813688767076_2_alg».proof.Proof.Gen.Kernel.Points
import proofs.«157324_j44813688767076_2_alg».proof.Proof.Gen.Kernel.Frame
import proofs.«157324_j44813688767076_2_alg».proof.Proof.Gen.KernelIdeal
import proofs.«157324_j44813688767076_2_alg».proof.Proof.Gen.KernelIdeal.Skeleton
import proofs.«157324_j44813688767076_2_alg».proof.Proof.Gen.KernelIdeal.Launch
import proofs.«157324_j44813688767076_2_alg».proof.Proof.Gen.KernelIdeal.Points
import proofs.«157324_j44813688767076_2_alg».proof.Proof.Gen.KernelIdeal.Frame
import proofs.«157324_j44813688767076_2_alg».proof.Proof.Gen.ReferenceIdeal
import proofs.«157324_j44813688767076_2_alg».proof.Proof.Gen.Pre_finite_inputs
import proofs.«157324_j44813688767076_2_alg».proof.Proof.Gen.KernelIdeal.Value
import proofs.«157324_j44813688767076_2_alg».proof.Proof.Gen.ReferenceIdeal.Run
import proofs.«157324_j44813688767076_2_alg».proof.Proof.Gen.ReferenceIdeal.Read
import proofs.«157324_j44813688767076_2_alg».proof.Proof.Final
import proofs.«157324_j44813688767076_2_alg».proof.Proof.RefIsG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals the kernel's result array ends at `G` of its arguments and the reference's result at `G` of
    arguments that agree with them. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
